-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32768x1024 .f32) (main_arg1 : FVec F S1024x1024 .f32) (main_arg2 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S32768x1024.size a
  hwx0_3 : ∀ i : grid0.Coords, EltTy.bits .f32 = 32 ∨ (Rect.block (s := S32768x1024) S512x1024.size (cc0_transform_3 i) (hinb0_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 8
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S32768x1024, .f32⟩
  | .hbm, ⟨5, _⟩ => ⟨S1x1024, .f32⟩
  | .hbm, ⟨6, _⟩ => ⟨S32768x1024, .f32⟩
  | .hbm, ⟨7, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  dot_S32768x1024_S1024x1024_S32768x1024_1_1_0_0_n_n_wf : DotDims.WF S32768x1024 S1024x1024 S32768x1024 [1] [1] [0] [0] [] []

variable [Facts₀]

def dot_S32768x1024_S1024x1024_S32768x1024_1_1_0_0_n_n : DotDims S32768x1024 S1024x1024 S32768x1024 where
  lhsContracting := [1]
  rhsContracting := [1]
  lhsNonContracting := [0]
  rhsNonContracting := [0]
  lhsBatch := []
  rhsBatch := []
  wf := dot_S32768x1024_S1024x1024_S32768x1024_1_1_0_0_n_n_wf

class Facts : Prop extends Facts₀ where

variable [Facts]
-- ==== Proof.Spec.lean ====
/-
  The sign-weight linear layer, as one function of its three argument arrays.

  For tokens x (32768 rows of 1024 features), weights w (1024 output rows of 1024 features) and a bias b (1024 entries),
  the layer replaces every weight by its sign (-1, 0 or 1) and applies the resulting matrix to each token:

      y(n, o) = (sum over k < 1024 of x(n, k) · sign(w(o, k))) + b(o).

  Everything is read on the extended reals, where the sum and the product are the exact ones and sign is taken by the
  order (the two infinities have signs -1 and 1). Nothing here mentions a program: both the tiled kernel and the
  whole-array reference are shown, elsewhere, to compute this function.
-/
import Idealize.ShloMosaic.PureOps.Ideal.Laws
import Idealize.ShloMosaic.Lib.ValueIdx

noncomputable section

open scoped BigOperators

namespace Cert.SignLinear

open Idealize.ShloMosaic Idealize.ShloMosaic.ValueIdx

/-- Entry (n, o) of the layer's result: row n of the tokens against row o of the weights' signs, plus entry o of the bias. -/
def layer (x : FVec Ideal ⟨2, ![32768, 1024]⟩ .f32) (w : FVec Ideal ⟨2, ![1024, 1024]⟩ .f32) (b : FVec Ideal ⟨1, ![1024]⟩ .f32) :
    FVec Ideal ⟨2, ![32768, 1024]⟩ .f32 :=
  fun i => (∑ k : Fin 1024, x (ix2 (i 0) k) * Ideal.sign (w (ix2 (i 1) k))) + b (ix1 (i 1))

/-- The same entry with the two coordinates named. -/
theorem layer_apply (x : FVec Ideal ⟨2, ![32768, 1024]⟩ .f32) (w : FVec Ideal ⟨2, ![1024, 1024]⟩ .f32) (b : FVec Ideal ⟨1, ![1024]⟩ .f32)
    (n : Fin 32768) (o : Fin 1024) :
    layer x w b (ix2 n o) = (∑ k : Fin 1024, x (ix2 n k) * Ideal.sign (w (ix2 o k))) + b (ix1 o) := rfl

end Cert.SignLinear

end
-- ==== Proof.RefLayer.lean ====
/-
  The reference computes the sign-weight linear layer.

  The reference takes the sign of every weight, contracts the tokens with the signs over the feature axis of both
  (an einsum 'ni,oi->no'), and adds the bias broadcast first to one row and then to every row. Read at an entry (n, o)
  on the extended reals: the contraction is the sum over k of x(n, k) · sign(w(o, k)), and the doubly broadcast bias is
  b(o). That is the layer's entry, term for term.
-/
import proofs.«107985_j22471268892739_1_alg».proof.Proof.Gen.ReferenceIdeal.Read
import proofs.«107985_j22471268892739_1_alg».proof.Proof.Spec

noncomputable section

open scoped BigOperators

namespace Cert.ReferenceIdeal.Layer

open Cert.ReferenceIdeal Cert.ReferenceIdeal.Read Idealize.ShloMosaic Idealize.ShloMosaic.ValueIdx

/-- The reference's last stage, as a function of the three arguments, is the layer. -/
theorem stage_eq_layer (x : FVec Ideal S32768x1024 .f32) (w : FVec Ideal S1024x1024 .f32) (b : FVec Ideal S1024 .f32) :
    val_main_v4 (F := Ideal) x w b = Cert.SignLinear.layer x w b := by
  funext i
  -- the token entry and the weight entry the contraction reads at position k, and the bias entry behind two broadcasts
  have el : ∀ k : Fin 1024, lidx_main_v1 i k = ix2 (i 0) k := fun k =>
    funext fun a => Fin.ext (by match a with | ⟨0, _⟩ => rfl | ⟨1, _⟩ => rfl)
  have er : ∀ k : Fin 1024, ridx_main_v1 i k = ix2 (i 1) k := fun k =>
    funext fun a => Fin.ext (by match a with | ⟨0, _⟩ => rfl | ⟨1, _⟩ => rfl)
  have eb : idx_main_v2 (idx_main_v3 i) = ix1 (i 1) :=
    funext fun a => Fin.ext (by match a with | ⟨0, _⟩ => rfl)
  rw [val_main_v4_apply, val_main_v1_apply, val_main_v3_apply, val_main_v2_apply, eb]
  simp only [val_main_v0_apply, el, er, Ideal.hostUnary_sign_def]
  rfl

end Cert.ReferenceIdeal.Layer

end
-- ==== Proof.LibDotNT.lean ====
/-
  The dimension numbers of a matrix product with the right operand transposed — both operands contracted on their last axis,
  no batch axes — read at an index. At result position (i, q) and contraction position k the left operand is read at (i, k) and the
  right at (q, k); the contraction shape has one axis of the shared extent, so the sum over it is the ordinary sum over k of
  l(i, k) · r(q, k): a row of the left against a row of the right. A matrix unit product of that form, at the ideal instance, reads as
  its accumulator plus that sum, whatever the extents.
-/
import Idealize.ShloMosaic.PureOps.Ideal.Laws
import Idealize.ShloMosaic.Lib.ValueIdx

noncomputable section

open scoped BigOperators

namespace Idealize.ShloMosaic.DotNT

open Idealize.ShloMosaic Idealize.ShloMosaic.ValueIdx

variable {M K N : Nat} (d : DotDims ⟨2, ![M, K]⟩ ⟨2, ![N, K]⟩ ⟨2, ![M, N]⟩)

/-- The dimension numbers: [1] × [1] contracted, [0] and [0] kept, no batch axes. -/
structure IsNT : Prop where
  lc : d.lhsContracting = [1]
  rc : d.rhsContracting = [1]
  ln : d.lhsNonContracting = [0]
  rn : d.rhsNonContracting = [0]
  lb : d.lhsBatch = []
  rb : d.rhsBatch = []

variable {d}

theorem rank_one (h : IsNT d) : d.contr.rank = 1 := by rw [d.rank_contr, h.lc]; rfl

theorem size_zero (h : IsNT d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsNT d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsNT d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsNT d) (j : (⟨2, ![M, N]⟩ : Shape).Idx) (k : d.contr.Idx) :
    (d.lhsIdx j k 1).val = (pos h k).val := by
  rw [d.lhsIdx_val_of_single h.lc j k]; rfl

theorem rhsIdx_row (h : IsNT d) (j : (⟨2, ![M, N]⟩ : Shape).Idx) (k : d.contr.Idx) :
    (d.rhsIdx j k 0).val = (j 1).val := by
  have hb : (0 : Fin 2) ∉ d.rhsBatch := by rw [h.rb]; exact List.not_mem_nil
  have hn : (0 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem rhsIdx_col (h : IsNT d) (j : (⟨2, ![M, N]⟩ : Shape).Idx) (k : d.contr.Idx) :
    (d.rhsIdx j k 1).val = (pos h k).val := by
  rw [d.rhsIdx_val_of_single h.rc j k]; rfl

theorem lhsIdx_eq (h : IsNT d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsNT d) (j : (⟨2, ![M, N]⟩ : Shape).Idx) (k : d.contr.Idx) :
    d.rhsIdx j k = ix2 (j 1) (pos h k) := by
  funext a; apply Fin.ext
  match a with
  | ⟨0, _⟩ => exact rhsIdx_row h j k
  | ⟨1, _⟩ => exact rhsIdx_col h j k

/-- THE CONTRACTION SUM: the sum over k below the shared extent of l(i, k) · r(q, k). -/
theorem sum_eq (h : IsNT d) (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 (j 1) k) := by
  rw [← Equiv.sum_comp (pos h) (fun k : Fin K => l (ix2 (j 0) k) * r (ix2 (j 1) k))]
  exact Finset.sum_congr rfl fun k _ => by rw [lhsIdx_eq h j k, rhsIdx_eq h j k]; rfl

/-- A matrix unit product of that form into any accumulator, at the ideal instance and at an index. -/
theorem matmul_apply (h : IsNT d) (prec : Option ContractPrecision) {φ₁ φ₂ : FTy}
    (l : FVec Ideal ⟨2, ![M, K]⟩ φ₁) (r : FVec Ideal ⟨2, ![N, K]⟩ φ₂) (acc : FVec Ideal ⟨2, ![M, N]⟩ .f32) (j : (⟨2, ![M, N]⟩ : Shape).Idx) :
    matmul d prec l r acc j = acc j + ∑ k : Fin K, l (ix2 (j 0) k) * r (ix2 (j 1) k) :=
  (Ideal.matmul_apply d prec l r acc j).trans (congrArg (acc j + ·) (sum_eq h l r j))

/-- Into a zero accumulator: just the sum. -/
theorem matmul_zero_apply (h : IsNT d) (prec : Option ContractPrecision) {φ₁ φ₂ : FTy}
    (l : FVec Ideal ⟨2, ![M, K]⟩ φ₁) (r : FVec Ideal ⟨2, ![N, K]⟩ φ₂) (j : (⟨2, ![M, N]⟩ : Shape).Idx) :
    matmul d prec l r (constant (F := Ideal) ⟨2, ![M, N]⟩ .f32 0x00000000#32) j = ∑ k : Fin K, l (ix2 (j 0) k) * r (ix2 (j 1) k) :=
  (Ideal.matmul_constant_zero_apply d prec l r j).trans (sum_eq h l r j)

end Idealize.ShloMosaic.DotNT

end
-- ==== Proof.Payload.lean ====
/-
  What the kernel's body stores, entry by entry.

  At one grid point the body holds a tile of 512 tokens, all the weights and the bias as a single row. It takes the
  sign of every weight — written as: where |w| > 0, the value 1 carrying the sign of w, and w itself (which is 0) elsewhere —,
  multiplies the tile by the signs with both operands contracted over their feature axis, into a zero accumulator, and adds the
  bias row to every row of the product. Changes of float format are the identity on the extended reals. So entry (p, q) of the
  stored tile is

      (sum over k < 1024 of x(p, k) · sign(w(q, k))) + b(0, q).
-/
import proofs.«107985_j22471268892739_1_alg».proof.Proof.Gen.KernelIdeal.Skeleton
import proofs.«107985_j22471268892739_1_alg».proof.Proof.LibDotNT
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The body's product contracts the last axis of both operands and has no batch axis. -/
theorem contracts_last : DotNT.IsNT dot_S512x1024_S1024x1024_S512x1024_1_1_0_0_n_n := ⟨rfl, rfl, rfl, rfl, rfl, rfl⟩

/-- Entry (p, q) of the tile the body stores, from the token tile, the weights and the bias row it loaded. -/
theorem stored_apply (w : Vec Ideal S1024x1024 .f32) (x : Vec Ideal S512x1024 .f32) (b : Vec Ideal S1x1024 .f32)
    (p : Fin 512) (q : Fin 1024) :
    k0_pay1 (F := Ideal) w x b (ix2 p q)
      = (∑ k : Fin 1024, x (ix2 p k) * Ideal.sign (w (ix2 q k))) + b (ix2 (0 : Fin 1) q) := by
  unfold k0_pay1
  refine (addf_apply _ _ _).trans ?_
  refine congrArg₂ (· + ·) ?_ ?_
  · -- the product into the zero accumulator is the contraction sum; each right factor is the sign of a weight
    refine (DotNT.matmul_zero_apply contracts_last none _ _ (ix2 p q)).trans ?_
    refine Finset.sum_congr rfl fun k _ => ?_
    exact congrArg (x (ix2 p k) * ·) (Ideal.jnp_sign_eq_sign_f32 (w (ix2 q k)))
  · -- the bias row, cast to its own shape and repeated on every row
    refine (broadcastTo_1b_ab_apply _ _ p q).trans ?_
    exact congrFun (shapeCast_self b _) _

end Cert.KernelIdeal.Body

end
-- ==== Proof.Tiles.lean ====
/-
  From the tiles to the whole result.

  The grid has 64 points. Point t holds tokens 512·t … 512·t + 511 (all 1024 features of each), all the weights, and the
  bias as the one-row array the host made of it by a reshape, and writes back rows 512·t … 512·t + 511 of the result.
  So entry (p, q) of the tile that point t stores is entry (512·t + p, q) of the sign-weight linear layer of the three
  argument arrays; the 64 row bands cover the result, and the result array ends as the layer of the arguments.
-/
import proofs.«107985_j22471268892739_1_alg».proof.Proof.Gen.KernelIdeal.Value
import proofs.«107985_j22471268892739_1_alg».proof.Proof.Payload
import proofs.«107985_j22471268892739_1_alg».proof.Proof.Spec
import Idealize.ShloMosaic.Lib.StableHlo.Run
import Idealize.ShloMosaic.Lib.ValueLayout

noncomputable section

open scoped BigOperators

namespace Cert.KernelIdeal.Tiles

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Which block of its array each window is on at point t: the tokens and the result move down one band per point, the
    weights and the bias row stay. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The bias as the kernel finds it: the vector reshaped to one row. -/
theorem bias_row (c : Dev nD) :
    (V m c main_v0 : S1x1024.Idx → Elt Ideal .f32)
      = shapeCast S1x1024 (m ((c : Thread nD τ).loc main_arg2)) shapeCasts_S1024_S1x1024 := by
  dsimp only [Gen.V, Gen.hostOps0]; after_results; rfl

/-- The token tile at point t is rows 512·t … of the tokens. -/
theorem tokens_tile (c : Dev nD) (t : Fin cfg0.N) (p : Fin 512) (k : Fin 1024) (n : Fin 32768)
    (hn : n.val = 512 * t.val + p.val) :
    (iblk m c 0 t : Vec Ideal S512x1024 .f32) (ix2 p k)
      = (m ((c : Thread nD τ).loc main_arg0) : S32768x1024.Idx → Elt Ideal .f32) (ix2 n k) := by
  obtain ⟨e0, e1, -⟩ := block_indices t
  unfold iblk
  rw [View.read_apply]
  show V m c main_arg0 _ = m (c.tc.loc main_arg0) _
  rw [V_main_arg0]
  refine congrArg (m ((c : Thread nD τ).loc main_arg0)) (funext fun a => Fin.ext ?_)
  match a with
  | ⟨0, _⟩ => show win0_0.index t 0 * 512 + 1 * p.val = n.val; rw [e0, hn]; omega
  | ⟨1, _⟩ => show win0_0.index t 1 * 1024 + 1 * k.val = k.val; rw [e1]; omega

/-- The weight tile at every point is all the weights. -/
theorem weights_tile (c : Dev nD) (t : Fin cfg0.N) (j : S1024x1024.Idx) :
    (iblk m c 1 t : Vec Ideal S1024x1024 .f32) j
      = (m ((c : Thread nD τ).loc main_arg1) : S1024x1024.Idx → Elt Ideal .f32) j := by
  obtain ⟨-, -, e0, e1, -⟩ := block_indices t
  unfold iblk
  rw [View.read_apply]
  show V m c main_arg1 _ = m (c.tc.loc main_arg1) _
  rw [V_main_arg1]
  refine congrArg (m ((c : Thread nD τ).loc main_arg1)) (funext fun a => Fin.ext ?_)
  match a with
  | ⟨0, _⟩ => show win0_1.index t 0 * 1024 + 1 * (j 0).val = (j 0).val; rw [e0]; omega
  | ⟨1, _⟩ => show win0_1.index t 1 * 1024 + 1 * (j 1).val = (j 1).val; rw [e1]; omega

/-- The bias tile at every point is the bias, as one row. -/
theorem bias_tile (c : Dev nD) (t : Fin cfg0.N) (q : Fin 1024) :
    (iblk m c 2 t : Vec Ideal S1x1024 .f32) (ix2 (0 : Fin 1) q)
      = (m ((c : Thread nD τ).loc main_arg2) : S1024.Idx → Elt Ideal .f32) (ix1 q) := by
  obtain ⟨-, -, -, -, e0, e1, -⟩ := block_indices t
  unfold iblk
  rw [View.read_apply]
  show V m c main_v0 _ = m (c.tc.loc main_arg2) _
  rw [bias_row]
  refine shapeCast_apply _ _ _ _ ?_
  show (S1024.rowMajor (ix1 q)).val = (S1x1024.rowMajor _).val
  rw [Shape.rowMajor_val_one, Shape.rowMajor_val_two]
  show q.val = (win0_2.index t 0 * 1 + 1 * 0) * 1024 + (win0_2.index t 1 * 1024 + 1 * q.val)
  rw [e0, e1]; omega

/-- Entry y of the tile that point t stores is the layer's entry at row 512·t + (row of y), same column. -/
theorem stored_entry (c : Dev nD) (t : Fin cfg0.N) (y : S512x1024.Idx) (i : S32768x1024.Idx)
    (h0 : (i 0).val = 512 * t.val + (y 0).val) (h1 : (i 1).val = (y 1).val) :
    k0_pay1 (F := Ideal) (iblk m c 1 t) (iblk m c 0 t) (iblk m c 2 t) y
      = Cert.SignLinear.layer (m ((c : Thread nD τ).loc main_arg0)) (m ((c : Thread nD τ).loc main_arg1))
          (m ((c : Thread nD τ).loc main_arg2)) i := by
  obtain ⟨p, q, rfl⟩ : ∃ (p : Fin 512) (q : Fin 1024), y = ix2 p q := ⟨y 0, y 1, eq_ix2 y⟩
  obtain ⟨n, o, rfl⟩ : ∃ (n : Fin 32768) (o : Fin 1024), i = ix2 n o := ⟨i 0, i 1, eq_ix2 i⟩
  have ho : o = q := Fin.ext h1
  subst ho
  refine (Body.stored_apply (iblk m c 1 t) (iblk m c 0 t) (iblk m c 2 t) p o).trans ?_
  refine (congrArg₂ (· + ·) (Finset.sum_congr rfl fun k _ => ?_) (bias_tile m c t o)).trans
    (Cert.SignLinear.layer_apply _ _ _ n o).symm
  exact congrArg₂ (· * ·) (tokens_tile m c t p k n h0) (congrArg Ideal.sign (weights_tile m c t (ix2 o k)))

/-- What point t writes back is band t of the layer of the argument arrays. -/
theorem flushed_eq (c : Dev nD) (t : Fin cfg0.N) :
    (dats m 0 c).flushed 3 t = ((cfg0.win 3).blk t).view.read (Elt Ideal)
      (Cert.SignLinear.layer (m ((c : Thread nD τ).loc main_arg0)) (m ((c : Thread nD τ).loc main_arg1))
        (m ((c : Thread nD τ).loc main_arg2))) := by
  obtain ⟨-, -, -, -, -, -, e0, e1⟩ := block_indices t
  rw [Value.flushed3]
  unfold out0_3
  rw [View.canon_unit_zero zero_offsets]
  simp only [View.ld_unit_zero (S := S1024x1024) zero_offsets, View.ld_unit_zero (S := S512x1024) zero_offsets,
    View.ld_unit_zero (S := S1x1024) zero_offsets]
  funext y
  refine stored_entry m c t ((cfg0.win 3).xinj (grid0.coords t) y) (((cfg0.win 3).blk t).view.emb y) ?_ ?_
  · show win0_3.index t 0 * 512 + 1 * (y 0).val = 512 * t.val + (y 0).val
    rw [e0]; omega
  · show win0_3.index t 1 * 1024 + 1 * (y 1).val = (y 1).val
    rw [e1]; omega

/-- An index of the result is in point t's band iff each coordinate is in the band's range on its axis. -/
theorem mem_band (t : Fin cfg0.N) (i : S32768x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v1).slice (win0_3.rect t)).set ↔ _
  rw [View.set_slice_whole, Rect.mem_set_unit]
  exact Iff.rfl

/-- Every index of the result is in the band of the point its row falls in: row r is in band r / 512. -/
theorem covered (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  have hN : cfg0.N = 64 := N_0
  refine ⟨⟨(i 0).val / 512, by rw [hN]; omega⟩, flush0_3 _, ?_⟩
  obtain ⟨-, -, -, -, -, -, e0, e1⟩ := block_indices ⟨(i 0).val / 512, by rw [hN]; omega⟩
  rw [mem_band]
  intro a
  match a with
  | ⟨0, _⟩ =>
    show win0_3.index _ 0 * 512 ≤ (i 0).val ∧ (i 0).val < win0_3.index _ 0 * 512 + 512
    rw [e0]; show (i 0).val / 512 * 512 ≤ (i 0).val ∧ (i 0).val < (i 0).val / 512 * 512 + 512; omega
  | ⟨1, _⟩ =>
    show win0_3.index _ 1 * 1024 ≤ (i 1).val ∧ (i 1).val < win0_3.index _ 1 * 1024 + 1024
    rw [e1]; omega

/-- The result array after the run is the layer of the argument arrays. -/
theorem result_eq (c : Dev nD) :
    (dats m 0 c).arrAt 3 cfg0.N = Cert.SignLinear.layer (m ((c : Thread nD τ).loc main_arg0))
      (m ((c : Thread nD τ).loc main_arg1)) (m ((c : Thread nD τ).loc main_arg2)) :=
  (dats m 0 c).arrAt_eq_of_cover 3 _ (fun t _ => flushed_eq m c t) covered

/-- Every weakly fair execution of the kernel's program ends with the result array at the layer of the arguments, and
    the arguments as they were. -/
theorem run : θ_run defs (onTc (τ := τ) (main (F := Ideal))) ⟨m, fun _ => 0, ρ⟩ fun r => ∀ c : Dev nD,
      r.2.mem ((c : Thread nD τ).loc main_v1) = Cert.SignLinear.layer (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_eq m c), (h c).2⟩) (Value.run_blocks m ρ)

end Cert.KernelIdeal.Tiles

end
-- ==== Proof.lean ====
/-
  A linear layer with sign-binarized weights: the tiled kernel against the whole-array reference.

  Both programs take tokens x (32768 × 1024), weights w (1024 × 1024) and a bias b (1024) and return

      y(n, o) = (sum over k < 1024 of x(n, k) · sign(w(o, k))) + b(o).

  The kernel walks 64 row bands of 512 tokens; at each it takes the signs of all the weights, multiplies the band by them
  (both operands contracted over their last axis, into a zero accumulator) and adds the bias, which the host handed it
  reshaped to one row. The reference takes the signs once, contracts the whole token array with them in the same way, and
  adds the bias broadcast to every row. On the extended reals a change of float format is the identity, a zero accumulator
  adds nothing, and the kernel's way of writing the sign — 1 carrying the sign of w where |w| > 0, and w itself where it is 0 —
  is the sign by the order, at the infinities too. So the two results are the same sums of the same products, entry by
  entry (Spec.lean states the function; Payload.lean and Tiles.lean show the kernel computes it, RefLayer.lean the reference).
  No law used needs the inputs to be finite.

  The kernel's idealization differs from the kernel in one place: the bit pattern of 1.0 combined with the sign bit of w is
  read as the choice between -1 and 1 by w < 0; that is the one conjunct of preserves.
-/
import proofs.«107985_j22471268892739_1_alg».proof.Defs
import proofs.«107985_j22471268892739_1_alg».proof.Proof.Gen.Kernel
import proofs.«107985_j22471268892739_1_alg».proof.Proof.Gen.Kernel.Skeleton
import proofs.«107985_j22471268892739_1_alg».proof.Proof.Gen.Kernel.Launch
import proofs.«107985_j22471268892739_1_alg».proof.Proof.Gen.Kernel.Points
import proofs.«107985_j22471268892739_1_alg».proof.Proof.Gen.Kernel.Frame
import proofs.«107985_j22471268892739_1_alg».proof.Proof.Gen.KernelIdeal
import proofs.«107985_j22471268892739_1_alg».proof.Proof.Gen.KernelIdeal.Skeleton
import proofs.«107985_j22471268892739_1_alg».proof.Proof.Gen.KernelIdeal.Launch
import proofs.«107985_j22471268892739_1_alg».proof.Proof.Gen.KernelIdeal.Points
import proofs.«107985_j22471268892739_1_alg».proof.Proof.Gen.KernelIdeal.Frame
import proofs.«107985_j22471268892739_1_alg».proof.Proof.Gen.ReferenceIdeal
import proofs.«107985_j22471268892739_1_alg».proof.Proof.Gen.Pre_finite_inputs
import proofs.«107985_j22471268892739_1_alg».proof.Proof.Gen.KernelIdeal.Value
import proofs.«107985_j22471268892739_1_alg».proof.Proof.Gen.ReferenceIdeal.Run
import proofs.«107985_j22471268892739_1_alg».proof.Proof.Gen.ReferenceIdeal.Read
import proofs.«107985_j22471268892739_1_alg».proof.Proof.Spec
import proofs.«107985_j22471268892739_1_alg».proof.Proof.RefLayer
import proofs.«107985_j22471268892739_1_alg».proof.Proof.Tiles
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: 1.0 with the sign bit of w is -1 where w < 0 and 1 elsewhere. -/
theorem preserves : Cert.preserves_Kernel_KernelIdeal :=
  IdealRules.sign_bit.statement Cert.KernelIdeal.S1024x1024 .f32

/-- From memories that agree on the three arguments, both programs end with the result array at the sign-weight linear
    layer of the arguments. -/
theorem algebraic : Cert.algebraic_KernelIdeal_ReferenceIdeal := by
  intro m ρ m' ρ' _ hagree
  refine ⟨fun c => Cert.SignLinear.layer (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Layer.stage_eq_layer,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
